-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S4096x4096 : Shape := ⟨2, ![4096, 4096]⟩
abbrev S4096 : Shape := ⟨1, ![4096]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S2x2048x4096 .f32) (main_arg1 : IVec S4096x4096 32) (main_arg2 : FVec F S4096 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S4096 .f32 := Host.absf main_arg2
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S2x2048x4096 : Shape := ⟨3, ![2, 2048, 4096]⟩
abbrev S4096x4096 : Shape := ⟨2, ![4096, 4096]⟩
abbrev S4096 : Shape := ⟨1, ![4096]⟩
abbrev S1x4096 : Shape := ⟨2, ![1, 4096]⟩
abbrev S2048x512 : Shape := ⟨2, ![2048, 512]⟩
abbrev S1024x512 : Shape := ⟨2, ![1024, 512]⟩
abbrev S1x1024 : Shape := ⟨2, ![1, 1024]⟩
abbrev S2048x1024 : Shape := ⟨2, ![2048, 1024]⟩

abbrev nBuf : Space → Nat
  | .hbm => 8
  | .vmem => 8
  | .smem => 0
  | _ => 0

abbrev bufTy : (tb : Table) → Fin (tcTables nBuf tb) → BufTy
  | .hbm, ⟨0, _⟩ => ⟨S2x2048x4096, .f32⟩
  | .hbm, ⟨1, _⟩ => ⟨S4096x4096, .i32⟩
  | .hbm, ⟨2, _⟩ => ⟨S4096, .f32⟩
  | .hbm, ⟨3, _⟩ => ⟨S4096x4096, .f32⟩
  | .hbm, ⟨4, _⟩ => ⟨S4096x4096, .bf16⟩
  | .hbm, ⟨5, _⟩ => ⟨S1x4096, .f32⟩
  | .hbm, ⟨6, _⟩ => ⟨S4096x4096, .f32⟩
  | .hbm, ⟨7, _⟩ => ⟨S2x2048x4096, .f32⟩
  | .local _ .vmem, ⟨0, _⟩ => ⟨S2048x512, .f32⟩
  | .local _ .vmem, ⟨1, _⟩ => ⟨S2048x512, .f32⟩
  | .local _ .vmem, ⟨2, _⟩ => ⟨S1024x512, .bf16⟩
  | .local _ .vmem, ⟨3, _⟩ => ⟨S1024x512, .bf16⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S2x2048x4096_S4096x4096 : S2x2048x4096.ShapeCasts S4096x4096
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S4096x4096_S2x2048x4096 : S4096x4096.ShapeCasts S2x2048x4096
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S4096x4096.size a
  hwx0_0 : ∀ i : grid0.Coords, EltTy.bits .f32 = 32 ∨ (Rect.block (s := S4096x4096) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .bf16 = 32 ∨ (Rect.block (s := S4096x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S4096x4096.size a
  hwx0_3 : ∀ i : grid0.Coords, EltTy.bits .f32 = 32 ∨ (Rect.block (s := S4096x4096) S2048x1024.size (cc0_transform_3 i) (hinb0_3 i)).WholeWords (EltTy.packing .f32)

variable [Facts₀]

def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x2048x4096 : Shape := ⟨3, ![2, 2048, 4096]⟩
abbrev S4096x4096 : Shape := ⟨2, ![4096, 4096]⟩
abbrev S4096 : Shape := ⟨1, ![4096]⟩
abbrev S4096x1 : Shape := ⟨2, ![4096, 1]⟩

abbrev nBuf : Space → Nat
  | .hbm => 8
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S4096x4096, .i32⟩
  | .hbm, ⟨2, _⟩ => ⟨S4096, .f32⟩
  | .hbm, ⟨3, _⟩ => ⟨S4096x4096, .f32⟩
  | .hbm, ⟨4, _⟩ => ⟨S4096x1, .f32⟩
  | .hbm, ⟨5, _⟩ => ⟨S4096x4096, .f32⟩
  | .hbm, ⟨6, _⟩ => ⟨S4096x4096, .f32⟩
  | .hbm, ⟨7, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  dot_S2x2048x4096_S4096x4096_S2x2048x4096_2_1_01_0_n_n_wf : DotDims.WF S2x2048x4096 S4096x4096 S2x2048x4096 [2] [1] [0, 1] [0] [] []

variable [Facts₀]

def dot_S2x2048x4096_S4096x4096_S2x2048x4096_2_1_01_0_n_n : DotDims S2x2048x4096 S4096x4096 S2x2048x4096 where
  lhsContracting := [2]
  rhsContracting := [1]
  lhsNonContracting := [0, 1]
  rhsNonContracting := [0]
  lhsBatch := []
  rhsBatch := []
  wf := dot_S2x2048x4096_S4096x4096_S2x2048x4096_2_1_01_0_n_n_wf

class Facts : Prop extends Facts₀ where

variable [Facts]
-- ==== Proof.Cases.lean ====
/-
  What the kernel body leaves in the resident output tile, case by case, as a term over the body's payloads.

  The body runs in one of three cases, by the position k of the grid point along the contracted axis:
  first (k = 0): the tile is zeroed, then the block product is added — zero + x·wᵀ;
  middle (0 < k < 7): the block product is added to what the point before left — acc + x·wᵀ;
  last (k = 7): the same, and then every column is multiplied by its scale — (acc + x·wᵀ) · scale.
  Each is read off the stores the run found: the last store to the whole tile wins, and a load that follows a
  whole-tile store reads what was stored.
-/
import proofs.«135993_j489626271767_2_alg».proof.Proof.Gen.KernelIdeal.Frame
import Idealize.ShloMosaic.Lib.Pipeline.Value
import Idealize.ShloMosaic.Lib.Tactic

noncomputable section

namespace Cert.KernelIdeal.Cases

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- Middle case: the tile holding `acc` ends at `acc + x·wᵀ`, the one whole-tile store's payload. -/
theorem out_middle (c : Dev nD) (i : grid0.Coords) (a3 : Memref sig .tc .vmem S2048x512 .f32) (h3 : a3.IsWhole)
    (a4 : Memref sig .tc .vmem S1024x512 .bf16) (h4 : a4.IsWhole) (a5 : Memref sig .tc .vmem S1x1024 .f32) (h5 : a5.IsWhole)
    (a6 : Memref sig .tc .vmem S2048x1024 .f32) (h6 : a6.IsWhole) (hc0 : ¬cond0_0 i) (hc1 : ¬cond0_1 i)
    (x0 : Vec F S2048x512 .f32) (x1 : Vec F S1024x512 .bf16) (x2 : Vec F S1x1024 .f32) (xo : Vec F S2048x1024 .f32) :
    out0_B_3 c i a3 h3 a4 h4 a5 h5 a6 h6 hc0 hc1 x0 x1 x2 xo = k0_pay2 x0 x1 xo := by
  unfold out0_B_3
  rw [View.read_writes_eq_canon _ _ _ (cover0_B_3 c i a3 h3 a4 h4 a5 h5 a6 h6 hc0 hc1 x0 x1 x2 xo)]
  unfold kernelRun0_B
  dsimp only
  rw [View.canon_unit_zero hz]
  simp only [View.readAt_eq_ld, h3.read_unread, h4.read_unread, h6.read_unread, View.ld_unit_zero (S := S2048x512) hz,
    View.ld_unit_zero (S := S1024x512) hz, View.ld_unit_zero (S := S2048x1024) hz]

/-- First case: the tile is zeroed and read back, so it ends at `zero + x·wᵀ`. -/
theorem out_first (c : Dev nD) (i : grid0.Coords) (a3 : Memref sig .tc .vmem S2048x512 .f32) (h3 : a3.IsWhole)
    (a4 : Memref sig .tc .vmem S1024x512 .bf16) (h4 : a4.IsWhole) (a5 : Memref sig .tc .vmem S1x1024 .f32) (h5 : a5.IsWhole)
    (a6 : Memref sig .tc .vmem S2048x1024 .f32) (h6 : a6.IsWhole) (hc0 : cond0_0 i) (hc1 : ¬cond0_1 i)
    (x0 : Vec F S2048x512 .f32) (x1 : Vec F S1024x512 .bf16) (x2 : Vec F S1x1024 .f32) :
    out0_A_3 c i a3 h3 a4 h4 a5 h5 a6 h6 hc0 hc1 x0 x1 x2 = k0_pay2 x0 x1 (k0_pay1 (F := F)) := by
  unfold out0_A_3
  rw [View.read_writes_eq_canon _ _ _ (cover0_A_3 c i a3 h3 a4 h4 a5 h5 a6 h6 hc0 hc1 x0 x1 x2)]
  unfold kernelRun0_A
  dsimp only
  sl_unfold_words
  rw [View.canon_cons_unit_zero (S := S2048x1024) hz, View.readCov_unit_zero (S := S2048x1024) _ hz]
  simp only [View.readAt_eq_ld, h3.read_unread, h4.read_unread, h5.read_unread, h6.read_unread,
    View.ld_unit_zero (S := S2048x512) hz, View.ld_unit_zero (S := S1024x512) hz, View.ld_unit_zero (S := S1x1024) hz,
    View.ld_unit_zero (S := S2048x1024) hz]

/-- Last case: the sum is stored, read back, and every column multiplied by its scale. -/
theorem out_last (c : Dev nD) (i : grid0.Coords) (a3 : Memref sig .tc .vmem S2048x512 .f32) (h3 : a3.IsWhole)
    (a4 : Memref sig .tc .vmem S1024x512 .bf16) (h4 : a4.IsWhole) (a5 : Memref sig .tc .vmem S1x1024 .f32) (h5 : a5.IsWhole)
    (a6 : Memref sig .tc .vmem S2048x1024 .f32) (h6 : a6.IsWhole) (hc0 : ¬cond0_0 i) (hc1 : cond0_1 i)
    (x0 : Vec F S2048x512 .f32) (x1 : Vec F S1024x512 .bf16) (x2 : Vec F S1x1024 .f32) (xo : Vec F S2048x1024 .f32) :
    out0_C_3 c i a3 h3 a4 h4 a5 h5 a6 h6 hc0 hc1 x0 x1 x2 xo = k0_pay3 (k0_pay2 x0 x1 xo) x2 := by
  unfold out0_C_3
  rw [View.read_writes_eq_canon _ _ _ (cover0_C_3 c i a3 h3 a4 h4 a5 h5 a6 h6 hc0 hc1 x0 x1 x2 xo)]
  unfold kernelRun0_C
  dsimp only
  sl_unfold_words
  rw [View.canon_cons_unit_zero (S := S2048x1024) hz, View.readCov_unit_zero (S := S2048x1024) _ hz]
  simp only [View.readAt_eq_ld, h3.read_unread, h4.read_unread, h5.read_unread, h6.read_unread,
    View.ld_unit_zero (S := S2048x512) hz, View.ld_unit_zero (S := S1024x512) hz, View.ld_unit_zero (S := S1x1024) hz,
    View.ld_unit_zero (S := S2048x1024) hz]

end Cert.KernelIdeal.Cases

end
-- ==== Proof.LibRowOps.lean ====
/-
  Two row operations read at an index, on the extended reals.

  A matrix product `[a, k] × [b, k] → [a, b]` that contracts the SECOND axis of both operands ("left times the
  transpose of right"), into the zero accumulator, is at entry `(p, c)` the sum over `j` of `lhs (p, j) · rhs (c, j)` —
  stated from four facts about the dimension record's operand indices, which each use proves by evaluating its record.
  A maximum over the last axis of an `[a, b]` array from the accumulator `−∞` is at row `r` the fold of `max` from `⊥`
  over the row's entries.
-/
import Idealize.ShloMosaic.Lib.ValueIdx
import Idealize.ShloMosaic.PureOps.Ideal.Laws

noncomputable section

namespace Idealize.ShloMosaic.RowOps

open Idealize.ShloMosaic Idealize.ShloMosaic.ValueIdx

variable {a k b : ℕ} {φ₁ φ₂ : FTy}

/-- The contraction sum of "left times right transposed" at entry `(p, c)`, re-indexed by the contracted coordinate. -/
theorem sumT_eq (D : DotDims ⟨2, ![a, k]⟩ ⟨2, ![b, k]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (lhs : FVec Ideal ⟨2, ![a, k]⟩ φ₁) (rhs : FVec Ideal ⟨2, ![b, k]⟩ φ₂) (p : Fin a) (c : Fin b) :
    ∑ q : D.contr.Idx, lhs (D.lhsIdx (ix2 p c) q) * rhs (D.rhsIdx (ix2 p c) q)
      = ∑ j : Fin k, lhs (ix2 p j) * rhs (ix2 c j) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 c j := funext fun ax => Fin.ext (by
    match ax with
    | ⟨0, _⟩ => exact hr0 _ _
    | ⟨1, _⟩ => exact (hr1 _ _).trans hk)
  rw [el, er]

/-- The matrix unit into the zero accumulator, "left times right transposed", at entry `(p, c)`. -/
theorem matmulT_zero_apply (D : DotDims ⟨2, ![a, k]⟩ ⟨2, ![b, k]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (lhs : FVec Ideal ⟨2, ![a, k]⟩ φ₁) (rhs : FVec Ideal ⟨2, ![b, k]⟩ φ₂) (p : Fin a) (c : Fin b) :
    matmul D prec lhs rhs (constant (F := Ideal) ⟨2, ![a, b]⟩ .f32 0x00000000#32) (ix2 p c)
      = ∑ j : Fin k, lhs (ix2 p j) * rhs (ix2 c j) :=
  (Ideal.matmul_constant_zero_apply D prec lhs rhs (ix2 p c)).trans (sumT_eq D hr hs hl0 hl1 hr0 hr1 lhs rhs p c)

/-- The binary32 word of `−∞` denotes `⊥`. -/
theorem ofBits_neg_inf : Ideal.ofBits .f32 0xFF800000#32 = (⊥ : EReal) := by
  simp [Ideal.ofBits, Ideal.ieee]

/-- The lane maximum of an `[a, b]` array from the accumulator `−∞`, at row `r`, is the fold of `max` from `⊥` over the
    row's entries. -/
theorem rowMax_apply (v : FVec Ideal ⟨2, ![a, b]⟩ .f32) (h : (⟨2, ![a, b]⟩ : Shape).Reduces [1] ⟨1, ![a]⟩)
    (hacc : (0xFF800000#32 : BitVec 32) = FKind.maximumf.neutral .f32 (.inl rfl)) (r : Fin a) :
    multiReduction .maximumf [1] ⟨1, ![a]⟩ v 0xFF800000#32 h (.inl rfl) hacc (ix1 r)
      = (Finset.univ : Finset (Fin b)).fold max ⊥ (fun k => v (ix2 r k)) := by
  refine (Ideal.multiReduction_maximumf_single v 0xFF800000#32 h (.inl rfl) hacc (ix1 r)).trans ?_
  rw [show (FloatOps.ofBits (F := Ideal) .f32 0xFF800000#32 : EReal) = ⊥ from ofBits_neg_inf]
  refine congrArg (fun f => (Finset.univ : Finset (Fin b)).fold max ⊥ f) (funext fun k => ?_)
  exact congrArg v (funext fun ax => Fin.ext (by
    match ax with
    | ⟨0, _⟩ => rfl
    | ⟨1, _⟩ => rfl))

end Idealize.ShloMosaic.RowOps

end
-- ==== Proof.Payloads.lean ====
/-
  The body's three payloads read at an entry of the output tile, on the extended reals.

  zero tile:        every entry is 0;
  accumulate step:  entry (p, q) is acc(p, q) + ∑ l, x(p, l) · w(q, l) — the block product contracts the second axis
                    of both blocks, into a zero accumulator, and narrowing x to a shorter format changes nothing;
  scale step:       entry (p, q) is acc(p, q) · scale(0, q) — the one-row scale block is laid down every row.
-/
import proofs.«135993_j489626271767_2_alg».proof.Proof.Gen.KernelIdeal.Skeleton
import proofs.«135993_j489626271767_2_alg».proof.Proof.LibRowOps
import Idealize.ShloMosaic.Lib.Pipeline.Value
import Idealize.ShloMosaic.Lib.ValueIdx
import Idealize.ShloMosaic.PureOps.Ideal.Laws

noncomputable section

namespace Cert.KernelIdeal.Payloads

open Idealize.ShloMosaic Idealize.ShloMosaic.ValueIdx
open Cert.KernelIdeal Cert.KernelIdeal.Gen

/-- The zero tile. -/
theorem zero_apply (j : S2048x1024.Idx) : k0_pay1 (F := Ideal) j = 0 := by
  unfold k0_pay1
  show Ideal.ofBits .f32 0x00000000#32 = 0
  exact Ideal.ofBits_zero_f32

/-- The dimension record of the block product: its left operand index keeps the output's row and takes the contracted
    coordinate as column; its right operand index takes the output's column as row. -/
theorem lhs_row (i : S2048x1024.Idx) (q : dot_S2048x512_S1024x512_S2048x1024_1_1_0_0_n_n.contr.Idx) :
    (dot_S2048x512_S1024x512_S2048x1024_1_1_0_0_n_n.lhsIdx i q 0).val = (i 0).val := by
  unfold DotDims.lhsIdx
  rw [dif_neg (show ¬(0 : Fin S2048x512.rank) ∈ dot_S2048x512_S1024x512_S2048x1024_1_1_0_0_n_n.lhsBatch by decide),
    dif_pos (show (0 : Fin S2048x512.rank) ∈ dot_S2048x512_S1024x512_S2048x1024_1_1_0_0_n_n.lhsNonContracting by decide)]
  rfl
theorem lhs_col (i : S2048x1024.Idx) (q : dot_S2048x512_S1024x512_S2048x1024_1_1_0_0_n_n.contr.Idx) :
    (dot_S2048x512_S1024x512_S2048x1024_1_1_0_0_n_n.lhsIdx i q 1).val = (q ⟨0, by decide⟩).val :=
  dot_S2048x512_S1024x512_S2048x1024_1_1_0_0_n_n.lhsIdx_val_of_single rfl i q
theorem rhs_row (i : S2048x1024.Idx) (q : dot_S2048x512_S1024x512_S2048x1024_1_1_0_0_n_n.contr.Idx) :
    (dot_S2048x512_S1024x512_S2048x1024_1_1_0_0_n_n.rhsIdx i q 0).val = (i 1).val := by
  unfold DotDims.rhsIdx
  rw [dif_neg (show ¬(0 : Fin S1024x512.rank) ∈ dot_S2048x512_S1024x512_S2048x1024_1_1_0_0_n_n.rhsBatch by decide),
    dif_pos (show (0 : Fin S1024x512.rank) ∈ dot_S2048x512_S1024x512_S2048x1024_1_1_0_0_n_n.rhsNonContracting by decide)]
  rfl
theorem rhs_col (i : S2048x1024.Idx) (q : dot_S2048x512_S1024x512_S2048x1024_1_1_0_0_n_n.contr.Idx) :
    (dot_S2048x512_S1024x512_S2048x1024_1_1_0_0_n_n.rhsIdx i q 1).val = (q ⟨0, by decide⟩).val :=
  dot_S2048x512_S1024x512_S2048x1024_1_1_0_0_n_n.rhsIdx_val_of_single rfl i q

/-- The accumulate step at entry (p, q). -/
theorem step_apply (x0 : Vec Ideal S2048x512 .f32) (x1 : Vec Ideal S1024x512 .bf16) (acc : Vec Ideal S2048x1024 .f32)
    (p : Fin 2048) (q : Fin 1024) :
    k0_pay2 (F := Ideal) x0 x1 acc (ix2 p q) = acc (ix2 p q) + ∑ l : Fin 512, x0 (ix2 p l) * x1 (ix2 q l) := by
  unfold k0_pay2
  rw [shapeCast_self, shapeCast_self, shapeCast_self, addf_apply]
  refine congrArg (acc (ix2 p q) + ·) ?_
  exact RowOps.matmulT_zero_apply (a := 2048) (k := 512) (b := 1024) dot_S2048x512_S1024x512_S2048x1024_1_1_0_0_n_n none rfl rfl
    lhs_row lhs_col rhs_row rhs_col _ _ p q

/-- The scale step at entry (p, q). -/
theorem scale_apply (acc : Vec Ideal S2048x1024 .f32) (sc : Vec Ideal S1x1024 .f32) (p : Fin 2048) (q : Fin 1024) :
    k0_pay3 (F := Ideal) acc sc (ix2 p q) = acc (ix2 p q) * sc (ix2 (0 : Fin 1) q) := by
  unfold k0_pay3
  rw [shapeCast_self, shapeCast_self, mulf_apply]
  refine congrArg (acc (ix2 p q) * ·) ?_
  exact broadcastTo_apply sc broadcasts_S1x1024_S2048x1024 (ix2 p q) (ix2 (0 : Fin 1) q) (fun a => by
    match a with
    | ⟨0, _⟩ => rfl
    | ⟨1, _⟩ => rfl)

end Cert.KernelIdeal.Payloads

end
-- ==== Proof.DotAlgebra.lean ====
/-
  Sums of products on the extended reals, as a scaled matrix product accumulated over column blocks needs them.

  The result both programs compute is, at output entry (b, s, o),

      (∑ u, x(b, s, u) · W(o, u)) · scale(o),

  with W(o, u) the integer weight read as a real number. One program forms the inner sum in eight
  column blocks of 512 and multiplies by scale(o) once, at the end; the other multiplies every weight by scale(o)
  first. The two agree when x and scale are real numbers: a real factor moves across a finite sum of reals. On the
  extended reals that law needs the finiteness (∞ · 0 conventions break distributivity), so it is stated with real
  witnesses. Splitting a sum over the first `len + blk` columns after the first `len` needs nothing: addition of
  extended reals is associative and commutative.
-/
import Idealize.ShloMosaic.Lib.ValueIdx
import Idealize.ShloMosaic.PureOps.Ideal

noncomputable section

namespace Cert.DotAlgebra

open Idealize.ShloMosaic Idealize.ShloMosaic.ValueIdx

/-- A finite sum of real numbers, read in the extended reals, is the sum of the readings. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor `c` moves across a finite sum of products of reals: ∑ x·(w·c) = (∑ x·w)·c. -/
theorem sum_mul_scale {ι : Type*} (s : Finset ι) (x w : ι → EReal) (c : EReal)
    (hx : ∀ i, ∃ r : ℝ, x i = r) (hw : ∀ i, ∃ r : ℝ, w i = r) (hc : ∃ r : ℝ, c = r) :
    ∑ i ∈ s, x i * (w i * c) = (∑ i ∈ s, x i * w i) * c := by
  choose xr hxr using hx
  choose wr hwr using hw
  obtain ⟨cr, rfl⟩ := hc
  simp only [hxr, hwr, ← EReal.coe_mul, ← coe_sum, Finset.sum_mul, mul_assoc]

/-- A rank-2 array continued by zero outside its bounds, over natural-number coordinates: sums over a range of
    columns are then sums over `Finset.range`, which split by addition of lengths. -/
def ext2 {a b : ℕ} (f : (⟨2, ![a, b]⟩ : Shape).Idx → EReal) (r u : ℕ) : EReal :=
  if h : r < a ∧ u < b then f (ix2 ⟨r, h.1⟩ ⟨u, h.2⟩) else 0

theorem ext2_of_lt {a b : ℕ} (f : (⟨2, ![a, b]⟩ : Shape).Idx → EReal) {r u : ℕ} (hr : r < a) (hu : u < b) :
    ext2 f r u = f (ix2 ⟨r, hr⟩ ⟨u, hu⟩) := dif_pos ⟨hr, hu⟩

/-- Row `r` of `x` against row `n` of `w`, over the first `len` columns. -/
def dotUpTo {a b k : ℕ} (x : (⟨2, ![a, k]⟩ : Shape).Idx → EReal) (w : (⟨2, ![b, k]⟩ : Shape).Idx → EReal)
    (r n len : ℕ) : EReal :=
  ∑ u ∈ Finset.range len, ext2 x r u * ext2 w n u

/-- One more block of `blk` columns after the first `len`. -/
theorem dotUpTo_add_block {a b k : ℕ} (x : (⟨2, ![a, k]⟩ : Shape).Idx → EReal) (w : (⟨2, ![b, k]⟩ : Shape).Idx → EReal)
    (r n len blk : ℕ) :
    dotUpTo x w r n (len + blk)
      = dotUpTo x w r n len + ∑ l ∈ Finset.range blk, ext2 x r (len + l) * ext2 w n (len + l) :=
  Finset.sum_range_add _ _ _

/-- Over all `k` columns it is the full product of the two rows. -/
theorem dotUpTo_full {a b k : ℕ} (x : (⟨2, ![a, k]⟩ : Shape).Idx → EReal) (w : (⟨2, ![b, k]⟩ : Shape).Idx → EReal)
    (r : Fin a) (n : Fin b) :
    dotUpTo x w r.val n.val k = ∑ u : Fin k, x (ix2 r u) * w (ix2 n u) := by
  unfold dotUpTo
  rw [Finset.sum_range]
  refine Finset.sum_congr rfl fun u _ => ?_
  rw [ext2_of_lt x r.isLt u.isLt, ext2_of_lt w n.isLt u.isLt]

/-- The common result: entry (b, s, o) is (∑ u, x(b, s, u) · W(o, u)) · scale(o), W the integer weight as a real. -/
def scaledDot (x : (⟨3, ![2, 2048, 4096]⟩ : Shape).Idx → EReal) (w : (⟨2, ![4096, 4096]⟩ : Shape).Idx → BitVec 32)
    (sc : (⟨1, ![4096]⟩ : Shape).Idx → EReal) : (⟨3, ![2, 2048, 4096]⟩ : Shape).Idx → EReal :=
  fun i => (∑ u : Fin 4096, x (ix3 (i 0) (i 1) u) * (((w (ix2 (i 2) u)).toInt : ℝ) : EReal)) * sc (ix1 (i 2))

end Cert.DotAlgebra

end
-- ==== Proof.Blocks.lean ====
/-
  The windows' blocks at a grid point, entry by entry.

  The grid has 64 points t = 32·i + 8·j + k (i < 2 row blocks of 2048, j < 4 column blocks of 1024, k < 8 blocks
  of 512 along the contracted axis). At point t
    the x block's entry (p, l) is X(2048·i + p, 512·k + l),
    the w block's entry (q, l) is W(1024·j + q, 512·k + l),
    the scale block's entry (0, q) is scale(0, 1024·j + q),
  where X, W and scale are the three arrays as the region finds them. A block's coordinate is always
  index × size + the coordinate inside the block; the index maps are decided once over the grid.
-/
import proofs.«135993_j489626271767_2_alg».proof.Proof.Gen.KernelIdeal.Frame
import proofs.«135993_j489626271767_2_alg».proof.Proof.DotAlgebra
import Idealize.ShloMosaic.Lib.Pipeline.Value

noncomputable section

namespace Cert.KernelIdeal.Blocks

open Idealize.ShloMosaic Idealize.ShloMosaic.TcCoe Idealize.SL.Sem Idealize.ShloMosaic.ValueIdx
open Cert.KernelIdeal Cert.KernelIdeal.Gen Cert.DotAlgebra

variable (m : (ℓ : Loc nD τ sig) → Buf (Elt Ideal) ℓ)

/-- The printed index maps in closed form, decided over the 64 grid points. -/
theorem index_maps : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = 0 ∧ win0_2.index t (1 : Fin 2) = t.val / 8 % 4
    ∧ win0_3.index t (0 : Fin 2) = t.val / 32 ∧ win0_3.index t (1 : Fin 2) = t.val / 8 % 4 :=
  (by decide +kernel : ∀ t : Fin grid0.N, _)

/-- The three arrays the windows stage, as the region finds them. -/
abbrev xs (c : Dev nD) : (⟨2, ![4096, 4096]⟩ : Shape).Idx → EReal := V m c main_v0
abbrev ws (c : Dev nD) : (⟨2, ![4096, 4096]⟩ : Shape).Idx → EReal := V m c main_v1
abbrev ss (c : Dev nD) : (⟨2, ![1, 4096]⟩ : Shape).Idx → EReal := V m c main_v2

/-- The x block at point t. -/
theorem xblk_apply (c : Dev nD) (t : Fin cfg0.N) (p : Fin 2048) (l : Fin 512) :
    (iblk m c 0 t : Vec Ideal S2048x512 .f32) (ix2 p l)
      = ext2 (xs m c) (2048 * (t.val / 32) + p.val) (512 * (t.val % 8) + l.val) := by
  have hN : t.val < 64 := lt_of_lt_of_eq t.isLt (show cfg0.N = 64 from N_0)
  obtain ⟨e0, e1, -⟩ := index_maps t
  rw [ext2_of_lt (xs m c) (by omega) (by omega)]
  unfold iblk
  rw [View.read_apply]
  show V m c main_v0 _ = V m c main_v0 _
  congr 1
  funext a
  apply Fin.ext
  match a with
  | ⟨0, _⟩ => show win0_0.index t 0 * 2048 + 1 * p.val = 2048 * (t.val / 32) + p.val; rw [e0]; omega
  | ⟨1, _⟩ => show win0_0.index t 1 * 512 + 1 * l.val = 512 * (t.val % 8) + l.val; rw [e1]; omega

/-- The w block at point t. -/
theorem wblk_apply (c : Dev nD) (t : Fin cfg0.N) (q : Fin 1024) (l : Fin 512) :
    (iblk m c 1 t : Vec Ideal S1024x512 .bf16) (ix2 q l)
      = ext2 (ws m c) (1024 * (t.val / 8 % 4) + q.val) (512 * (t.val % 8) + l.val) := by
  have hN : t.val < 64 := lt_of_lt_of_eq t.isLt (show cfg0.N = 64 from N_0)
  obtain ⟨-, -, e0, e1, -⟩ := index_maps t
  rw [ext2_of_lt (ws m c) (by omega) (by omega)]
  unfold iblk
  rw [View.read_apply]
  show V m c main_v1 _ = V m c main_v1 _
  congr 1
  funext a
  apply Fin.ext
  match a with
  | ⟨0, _⟩ => show win0_1.index t 0 * 1024 + 1 * q.val = 1024 * (t.val / 8 % 4) + q.val; rw [e0]; omega
  | ⟨1, _⟩ => show win0_1.index t 1 * 512 + 1 * l.val = 512 * (t.val % 8) + l.val; rw [e1]; omega

/-- The scale block at point t. -/
theorem sblk_apply (c : Dev nD) (t : Fin cfg0.N) (q : Fin 1024) :
    (iblk m c 2 t : Vec Ideal S1x1024 .f32) (ix2 (0 : Fin 1) q)
      = ext2 (ss m c) 0 (1024 * (t.val / 8 % 4) + q.val) := by
  have hN : t.val < 64 := lt_of_lt_of_eq t.isLt (show cfg0.N = 64 from N_0)
  obtain ⟨-, -, -, -, e0, e1, -⟩ := index_maps t
  rw [ext2_of_lt (ss m c) (by omega) (by omega)]
  unfold iblk
  rw [View.read_apply]
  show V m c main_v2 _ = V m c main_v2 _
  congr 1
  funext a
  apply Fin.ext
  match a with
  | ⟨0, _⟩ => show win0_2.index t 0 * 1 + 1 * 0 = 0; rw [e0]
  | ⟨1, _⟩ => show win0_2.index t 1 * 1024 + 1 * q.val = 1024 * (t.val / 8 % 4) + q.val; rw [e1]; omega

end Cert.KernelIdeal.Blocks

end
-- ==== Proof.Accumulate.lean ====
/-
  What the resident output tile holds after each grid point, entry by entry — by induction on the point.

  After point t = 32·i + 8·j + k, entry (p, q) of the tile is the product of row 2048·i + p of X with row
  1024·j + q of W over the first 512·(k + 1) columns; after the last point of a run (k = 7) that product over all
  4096 columns, times scale(0, 1024·j + q). The first point of a run (k = 0) starts from the zero tile, a later one
  from what the point before left, whose row and column blocks are the same (only k moved).
-/
import proofs.«135993_j489626271767_2_alg».proof.Proof.Cases
import proofs.«135993_j489626271767_2_alg».proof.Proof.Payloads
import proofs.«135993_j489626271767_2_alg».proof.Proof.Blocks

noncomputable section

namespace Cert.KernelIdeal.Accumulate

open Idealize.ShloMosaic Idealize.ShloMosaic.TcCoe Idealize.SL.Sem Idealize.ShloMosaic.ValueIdx
open Cert.KernelIdeal Cert.KernelIdeal.Gen Cert.DotAlgebra
open Cert.KernelIdeal.Cases Cert.KernelIdeal.Payloads Cert.KernelIdeal.Blocks

variable (m : (ℓ : Loc nD τ sig) → Buf (Elt Ideal) ℓ)

/-- The three blocks at point t, at their literal shapes. -/
abbrev xb (c : Dev nD) (t : Fin cfg0.N) : Vec Ideal S2048x512 .f32 := iblk m c 0 t
abbrev wb (c : Dev nD) (t : Fin cfg0.N) : Vec Ideal S1024x512 .bf16 := iblk m c 1 t
abbrev sb (c : Dev nD) (t : Fin cfg0.N) : Vec Ideal S1x1024 .f32 := iblk m c 2 t

/-- Row 2048·i + p of X against row 1024·j + q of W over the first `len` columns, (i, j) the row and column block
    of point n. -/
def rowsUpTo (c : Dev nD) (n : ℕ) (p : Fin 2048) (q : Fin 1024) (len : ℕ) : EReal :=
  dotUpTo (xs m c) (ws m c) (2048 * (n / 32) + p.val) (1024 * (n / 8 % 4) + q.val) len

/-- The block product at point t is the next 512 columns of that sum. -/
theorem block_sum (c : Dev nD) (t : Fin cfg0.N) (p : Fin 2048) (q : Fin 1024) :
    ∑ l : Fin 512, xb m c t (ix2 p l) * wb m c t (ix2 q l)
      = ∑ l ∈ Finset.range 512, ext2 (xs m c) (2048 * (t.val / 32) + p.val) (512 * (t.val % 8) + l)
          * ext2 (ws m c) (1024 * (t.val / 8 % 4) + q.val) (512 * (t.val % 8) + l) := by
  rw [Finset.sum_range]
  exact Finset.sum_congr rfl fun l _ => congrArg₂ (· * ·) (xblk_apply m c t p l) (wblk_apply m c t q l)

/-- One accumulate step: from the sum over the first 512·k columns to the sum over the first 512·(k + 1). -/
theorem step_eq (c : Dev nD) (t : Fin cfg0.N) (acc : Vec Ideal S2048x1024 .f32) (p : Fin 2048) (q : Fin 1024)
    (hacc : acc (ix2 p q) = rowsUpTo m c t.val p q (512 * (t.val % 8))) :
    k0_pay2 (F := Ideal) (xb m c t) (wb m c t) acc (ix2 p q) = rowsUpTo m c t.val p q (512 * (t.val % 8 + 1)) := by
  rw [step_apply (xb m c t) (wb m c t) acc p q, block_sum m c t p q, hacc]
  unfold rowsUpTo
  rw [show 512 * (t.val % 8 + 1) = 512 * (t.val % 8) + 512 by omega]
  exact (dotUpTo_add_block _ _ _ _ _ _).symm

/-- What the tile's entry (p, q) is after point n. -/
def tileAt (c : Dev nD) (n : ℕ) (p : Fin 2048) (q : Fin 1024) : EReal :=
  if n % 8 = 7 then rowsUpTo m c n p q 4096 * ext2 (ss m c) 0 (1024 * (n / 8 % 4) + q.val)
  else rowsUpTo m c n p q (512 * (n % 8 + 1))

/-- At the first point of a run the tile starts from zero. -/
theorem at_first (c : Dev nD) (t : Fin cfg0.N) (h0 : t.val % 8 = 0) (p : Fin 2048) (q : Fin 1024) :
    (outsAt0 m c t.val t.isLt : Vec Ideal S2048x1024 .f32) (ix2 p q) = rowsUpTo m c t.val p q (512 * (t.val % 8 + 1)) := by
  rw [outsAt0_A m c t h0 (by omega)]
  rw [out_first c (grid0.coords t) (ms0_0 t) (hs0_0 t) (ms0_1 t) (hs0_1 t) (ms0_2 t) (hs0_2 t) (ms0_3 t) (hs0_3 t) _ _
    (xb m c t) (wb m c t) (sb m c t)]
  refine step_eq m c t (k0_pay1 (F := Ideal)) p q ?_
  rw [zero_apply, h0]
  unfold rowsUpTo dotUpTo
  rw [Nat.mul_zero, Finset.sum_range_zero]

/-- THE INVARIANT, by induction on the point. -/
theorem tile_eq (c : Dev nD) : ∀ (n : ℕ) (hn : n < cfg0.N) (p : Fin 2048) (q : Fin 1024),
    (outsAt0 m c n hn : Vec Ideal S2048x1024 .f32) (ix2 p q) = tileAt m c n p q
  | 0, hn, p, q => by
    rw [tileAt, if_neg (by decide)]
    exact at_first m c ⟨0, hn⟩ rfl p q
  | n + 1, hn, p, q => by
    have hN : n + 1 < 64 := lt_of_lt_of_eq hn (show cfg0.N = 64 from N_0)
    by_cases h0 : (n + 1) % 8 = 0
    · rw [tileAt, if_neg (by omega)]
      exact at_first m c ⟨n + 1, hn⟩ h0 p q
    · have ih := tile_eq c n (Nat.lt_of_succ_lt hn) p q
      rw [tileAt, if_neg (by omega : ¬n % 8 = 7)] at ih
      have hprev : (outsAt0 m c n (Nat.lt_of_succ_lt hn) : Vec Ideal S2048x1024 .f32) (ix2 p q)
          = rowsUpTo m c (n + 1) p q (512 * ((n + 1) % 8)) := by
        rw [ih]
        unfold rowsUpTo
        rw [show 2048 * (n / 32) + p.val = 2048 * ((n + 1) / 32) + p.val by omega,
          show 1024 * (n / 8 % 4) + q.val = 1024 * ((n + 1) / 8 % 4) + q.val by omega,
          show 512 * (n % 8 + 1) = 512 * ((n + 1) % 8) by omega]
      by_cases h1 : (n + 1) % 8 = 7
      · rw [tileAt, if_pos h1]
        rw [outsAt0_C m c ⟨n + 1, hn⟩ h0 h1]
        refine (congrFun (out_last c (grid0.coords ⟨n + 1, hn⟩) (ms0_0 ⟨n + 1, hn⟩) (hs0_0 ⟨n + 1, hn⟩) (ms0_1 ⟨n + 1, hn⟩) (hs0_1 ⟨n + 1, hn⟩)
          (ms0_2 ⟨n + 1, hn⟩) (hs0_2 ⟨n + 1, hn⟩) (ms0_3 ⟨n + 1, hn⟩) (hs0_3 ⟨n + 1, hn⟩) _ _
          (xb m c ⟨n + 1, hn⟩) (wb m c ⟨n + 1, hn⟩) (sb m c ⟨n + 1, hn⟩) (outsAt0 m c n (Nat.lt_of_succ_lt hn))) (ix2 p q)).trans ?_
        refine (scale_apply _ (sb m c ⟨n + 1, hn⟩) p q).trans ?_
        refine (congrArg₂ (· * ·) (step_eq m c ⟨n + 1, hn⟩ (outsAt0 m c n (Nat.lt_of_succ_lt hn)) p q hprev)
          (sblk_apply m c ⟨n + 1, hn⟩ q)).trans ?_
        show rowsUpTo m c (n + 1) p q (512 * ((n + 1) % 8 + 1)) * _ = rowsUpTo m c (n + 1) p q 4096 * _
        rw [show 512 * ((n + 1) % 8 + 1) = 4096 by omega]
      · rw [tileAt, if_neg h1]
        rw [outsAt0_B m c ⟨n + 1, hn⟩ h0 h1]
        refine (congrFun (out_middle c (grid0.coords ⟨n + 1, hn⟩) (ms0_0 ⟨n + 1, hn⟩) (hs0_0 ⟨n + 1, hn⟩) (ms0_1 ⟨n + 1, hn⟩) (hs0_1 ⟨n + 1, hn⟩)
          (ms0_2 ⟨n + 1, hn⟩) (hs0_2 ⟨n + 1, hn⟩) (ms0_3 ⟨n + 1, hn⟩) (hs0_3 ⟨n + 1, hn⟩) _ _
          (xb m c ⟨n + 1, hn⟩) (wb m c ⟨n + 1, hn⟩) (sb m c ⟨n + 1, hn⟩) (outsAt0 m c n (Nat.lt_of_succ_lt hn))) (ix2 p q)).trans ?_
        exact step_eq m c ⟨n + 1, hn⟩ (outsAt0 m c n (Nat.lt_of_succ_lt hn)) p q hprev

end Cert.KernelIdeal.Accumulate

end
-- ==== Proof.HostPrefix.lean ====
/-
  The three arrays the region finds, entry by entry, from the program's arguments.

  X is x with its two leading axes merged:     X(2048·b + s, u) = x(b, s, u);
  W is the integer weight read as a real:        W(o, u) = the signed value of weight(o, u);
  scale is the scale vector laid as one row:     scale(0, o) = weight_scaler(o).
  A reshape keeps the row-major position of every entry.
-/
import proofs.«135993_j489626271767_2_alg».proof.Proof.Blocks
import Idealize.ShloMosaic.Lib.StableHlo.Run
import Idealize.ShloMosaic.Lib.Tactic

noncomputable section

namespace Cert.KernelIdeal.HostPrefix

open Idealize.ShloMosaic Idealize.ShloMosaic.TcCoe Idealize.SL.Sem Idealize.ShloMosaic.ValueIdx
open Cert.KernelIdeal Cert.KernelIdeal.Gen Cert.KernelIdeal.Blocks

variable (m : (ℓ : Loc nD τ sig) → Buf (Elt Ideal) ℓ)

/-- The program's three arguments on core c. -/
abbrev argX (c : Dev nD) : (⟨3, ![2, 2048, 4096]⟩ : Shape).Idx → EReal := m ((c.tc : Thread nD τ).loc main_arg0)
abbrev argW (c : Dev nD) : (⟨2, ![4096, 4096]⟩ : Shape).Idx → BitVec 32 := m ((c.tc : Thread nD τ).loc main_arg1)
abbrev argS (c : Dev nD) : (⟨1, ![4096]⟩ : Shape).Idx → EReal := m ((c.tc : Thread nD τ).loc main_arg2)

theorem xs_eq (c : Dev nD) :
    xs m c = shapeCast S4096x4096 (argX m c) shapeCasts_S2x2048x4096_S4096x4096 := by
  show StableHlo.after hostOps0 (fun b => m (c, b)) (Proc.devRef .tc main_v0) = _
  after_results
  rfl

theorem ws_eq (c : Dev nD) :
    ws m c = (sitofp .bf16 (argW m c) : FVec Ideal S4096x4096 .bf16) := by
  show StableHlo.after hostOps0 (fun b => m (c, b)) (Proc.devRef .tc main_v1) = _
  after_results

theorem ss_eq (c : Dev nD) :
    ss m c = shapeCast S1x4096 (argS m c) shapeCasts_S4096_S1x4096 := by
  show StableHlo.after hostOps0 (fun b => m (c, b)) (Proc.devRef .tc main_v2) = _
  after_results
  rfl

/-- X(2048·b + s, u) = x(b, s, u). -/
theorem xs_apply (c : Dev nD) (b : Fin 2) (s : Fin 2048) (u : Fin 4096) (r : Fin 4096) (hr : r.val = 2048 * b.val + s.val) :
    xs m c (ix2 r u) = argX m c (ix3 b s u) := by
  rw [xs_eq]
  refine shapeCast_apply _ _ (ix2 r u) (ix3 b s u) ?_
  rw [Shape.rowMajor_val_three, Shape.rowMajor_val_two]
  show (b.val * 2048 + s.val) * 4096 + u.val = r.val * 4096 + u.val
  rw [hr]; ring

/-- W(o, u) is the signed integer weight(o, u) as a real. -/
theorem ws_apply (c : Dev nD) (o u : Fin 4096) :
    ws m c (ix2 o u) = (((argW m c (ix2 o u)).toInt : ℝ) : EReal) := by
  rw [ws_eq]
  rfl

/-- scale(0, o) = weight_scaler(o). -/
theorem ss_apply (c : Dev nD) (o : Fin 4096) :
    ss m c (ix2 (0 : Fin 1) o) = argS m c (ix1 o) := by
  rw [ss_eq]
  refine shapeCast_apply _ _ (ix2 (0 : Fin 1) o) (ix1 o) ?_
  rw [Shape.rowMajor_val_one, Shape.rowMajor_val_two]
  show o.val = 0 * 4096 + o.val
  omega

end Cert.KernelIdeal.HostPrefix

end
-- ==== Proof.KernelValue.lean ====
/-
  The kernel's result, as one function of its arguments.

  The region's output array is written back once per run of eight points, at the run's last point, one
  2048 × 1024 tile per (row block, column block); the tiles cover the array. So its entry (r, n) is
  (∑ u, X(r, u) · W(n, u)) · scale(0, n), and the program's result — that array with its row axis split in two —
  has at (b, s, o) the value (∑ u, x(b, s, u) · W(o, u)) · scale(o).
-/
import proofs.«135993_j489626271767_2_alg».proof.Proof.Accumulate
import proofs.«135993_j489626271767_2_alg».proof.Proof.HostPrefix
import Idealize.ShloMosaic.Lib.Pipeline.Value
import Idealize.ShloMosaic.Lib.StableHlo.Run
import Idealize.ShloMosaic.Lib.Tactic

noncomputable section

namespace Cert.KernelIdeal.KernelValue

open Idealize.ShloMosaic Idealize.ShloMosaic.TcCoe Idealize.SL.Sem Idealize.ShloMosaic.ValueIdx
open Idealize.ShloMosaic.Pipeline (Dat)
open Cert.KernelIdeal Cert.KernelIdeal.Gen Cert.DotAlgebra
open Cert.KernelIdeal.Blocks Cert.KernelIdeal.Accumulate Cert.KernelIdeal.HostPrefix

variable (m : (ℓ : Loc nD τ sig) → Buf (Elt Ideal) ℓ) (ρ : Dev nD → PrngReg)

/-- The region's output array: entry (r, n) is (∑ u, X(r, u) · W(n, u)) · scale(0, n). -/
def product (c : Dev nD) : (⟨2, ![4096, 4096]⟩ : Shape).Idx → EReal :=
  fun i => (∑ u : Fin 4096, xs m c (ix2 (i 0) u) * ws m c (ix2 (i 1) u)) * ss m c (ix2 (0 : Fin 1) (i 1))

theorem product_apply (c : Dev nD) (i : (⟨2, ![4096, 4096]⟩ : Shape).Idx) :
    product m c i = dotUpTo (xs m c) (ws m c) (i 0).val (i 1).val 4096 * ext2 (ss m c) 0 (i 1).val := by
  unfold product
  rw [dotUpTo_full (xs m c) (ws m c) (i 0) (i 1), ext2_of_lt (ss m c) (by decide : 0 < 1) (i 1).isLt]
  rfl

/-- What the last point of a run writes back is its tile of `product`. -/
theorem flushed_eq (c : Dev nD) (t : Fin cfg0.N) (hf : (cfg0.win 3).flush t = true) :
    (dats m 0 c).flushed 3 t = ((cfg0.win 3).blk t).view.read (Elt Ideal) (product m c) := by
  have h7 : t.val % 8 = 7 := (flush0_3 t).mp hf
  have hN : t.val < 64 := lt_of_lt_of_eq t.isLt (show cfg0.N = 64 from N_0)
  obtain ⟨-, -, -, -, -, -, e0, e1⟩ := index_maps t
  show (cfg0.win 3).cut (grid0.coords t) ((dats m 0 c).after 3 t) = _
  rw [after0_3]
  refine funext fun (j : S2048x1024.Idx) => ?_
  obtain ⟨p, q, rfl⟩ : ∃ (p : Fin 2048) (q : Fin 1024), j = ix2 p q := ⟨j 0, j 1, eq_ix2 j⟩
  rw [View.read_apply]
  show (outsAt0 m c t.val t.isLt : Vec Ideal S2048x1024 .f32) (ix2 p q)
    = product m c (((cfg0.win 3).blk t).view.emb (ix2 p q))
  rw [tile_eq m c t.val t.isLt p q, tileAt, if_pos h7]
  have hr : 2048 * (t.val / 32) + p.val < 4096 := by omega
  have hn : 1024 * (t.val / 8 % 4) + q.val < 4096 := by omega
  have hi : ((cfg0.win 3).blk t).view.emb (ix2 p q)
      = ix2 (⟨2048 * (t.val / 32) + p.val, hr⟩ : Fin 4096) (⟨1024 * (t.val / 8 % 4) + q.val, hn⟩ : Fin 4096) := by
    funext a
    apply Fin.ext
    match a with
    | ⟨0, _⟩ => show win0_3.index t 0 * 2048 + 1 * p.val = 2048 * (t.val / 32) + p.val; rw [e0]; omega
    | ⟨1, _⟩ => show win0_3.index t 1 * 1024 + 1 * q.val = 1024 * (t.val / 8 % 4) + q.val; rw [e1]; omega
  rw [hi, product_apply]
  rfl

/-- Every entry of the array is in the tile of the last point of its run: for (r, n) that is point
    32·(r / 2048) + 8·(n / 1024) + 7. -/
theorem cover (c : Dev nD) (i : (⟨2, ![4096, 4096]⟩ : Shape).Idx) :
    ∃ t : Fin cfg0.N, (cfg0.win 3).flush t = true ∧ i ∈ ((cfg0.win 3).blk t).view.set := by
  have h0 : (i 0).val < 4096 := (i 0).isLt
  have h1 : (i 1).val < 4096 := (i 1).isLt
  have hN : cfg0.N = 64 := N_0
  obtain ⟨t, ht⟩ : ∃ t : Fin cfg0.N, t.val = 32 * ((i 0).val / 2048) + 8 * ((i 1).val / 1024) + 7 :=
    ⟨⟨32 * ((i 0).val / 2048) + 8 * ((i 1).val / 1024) + 7, by rw [hN]; omega⟩, rfl⟩
  obtain ⟨-, -, -, -, -, -, e0, e1⟩ := index_maps t
  refine ⟨t, (flush0_3 t).mpr (by omega), ?_⟩
  show i ∈ ((View.whole main_v3).slice (win0_3.rect t)).set
  rw [View.set_slice_whole, Rect.mem_set_unit]
  intro a
  match a with
  | ⟨0, _⟩ =>
    show win0_3.index t (0 : Fin 2) * 2048 ≤ (i 0).val ∧ (i 0).val < win0_3.index t (0 : Fin 2) * 2048 + 2048
    rw [e0]; omega
  | ⟨1, _⟩ =>
    show win0_3.index t (1 : Fin 2) * 1024 ≤ (i 1).val ∧ (i 1).val < win0_3.index t (1 : Fin 2) * 1024 + 1024
    rw [e1]; omega

/-- The region's output array after the run. -/
theorem final (c : Dev nD) : (dats m 0 c).arrAt 3 cfg0.N = product m c :=
  (dats m 0 c).arrAt_eq_of_cover 3 (product m c) (flushed_eq m c) (cover c)

/-- The program's result: the output array with its row axis split into (2, 2048). -/
def result (c : Dev nD) : (⟨3, ![2, 2048, 4096]⟩ : Shape).Idx → EReal :=
  shapeCast S2x2048x4096 (product m c) shapeCasts_S4096x4096_S2x2048x4096

/-- The host line after the region leaves it in the result buffer. -/
theorem tail_eq (c : Dev nD) :
    Pipeline.afterTail₀ cfgs (dats m) 0 (V0 m) [hostOps1] c main_v4 = result m c := by
  have e : (Pipeline.withArrays (cfgs 0).spec c (V0 m c) (fun w => (dats m 0 c).arrAt w (cfgs 0).N)
      (Proc.devRef .tc main_v3) : S4096x4096.Idx → EReal) = product m c :=
    (Pipeline.withArrays_arr (cfgs 0).spec launch0.win.arr_inj c (V0 m c) (fun w => (dats m 0 c).arrAt w (cfgs 0).N) 3).trans
      (final m c)
  unfold Pipeline.afterTail₀
  show StableHlo.after hostOps1 _ (Proc.devRef .tc main_v4) = _
  after_results
  exact congrArg (fun a => shapeCast S2x2048x4096 a shapeCasts_S4096x4096_S2x2048x4096) e

/-- Entry (b, s, o) of the result is (∑ u, x(b, s, u) · W(o, u)) · scale(o): the reshape reads row 2048·b + s. -/
theorem result_eq (c : Dev nD) : result m c = scaledDot (argX m c) (argW m c) (argS m c) := by
  funext i
  obtain ⟨b, s, o, rfl⟩ : ∃ (b : Fin 2) (s : Fin 2048) (o : Fin 4096), i = ix3 b s o := ⟨i 0, i 1, i 2, eq_ix3 i⟩
  have hb : b.val < 2 := b.isLt
  have hs : s.val < 2048 := s.isLt
  have hr : 2048 * b.val + s.val < 4096 := by omega
  unfold result
  rw [shapeCast_apply (product m c) shapeCasts_S4096x4096_S2x2048x4096 (ix3 b s o) (ix2 ⟨2048 * b.val + s.val, hr⟩ o) (by
    rw [Shape.rowMajor_val_two, Shape.rowMajor_val_three]
    show (2048 * b.val + s.val) * 4096 + o.val = (b.val * 2048 + s.val) * 4096 + o.val
    omega)]
  unfold product scaledDot
  show (∑ u : Fin 4096, xs m c (ix2 ⟨2048 * b.val + s.val, hr⟩ u) * ws m c (ix2 o u)) * ss m c (ix2 (0 : Fin 1) o)
    = (∑ u : Fin 4096, argX m c (ix3 b s u) * (((argW m c (ix2 o u)).toInt : ℝ) : EReal)) * argS m c (ix1 o)
  rw [ss_apply m c o]
  refine congrArg (· * argS m c (ix1 o)) (Finset.sum_congr rfl fun u _ => ?_)
  rw [xs_apply m c b s u ⟨2048 * b.val + s.val, hr⟩ rfl, ws_apply m c o u]

/-- THE RUN, READ: every weakly fair execution ends with the result buffer at the common form of the arguments, the
    arguments unchanged. -/
theorem run : θ_run defs (onTc (τ := τ) (main (F := Ideal))) ⟨m, fun _ => 0, ρ⟩ fun r => ∀ c : Dev nD,
      r.2.mem ((c.tc : Thread nD τ).loc main_v4) = scaledDot (argX m c) (argW m c) (argS m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans ((tail_eq m c).trans (result_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KernelValue

end
-- ==== Proof.RefSide.lean ====
/-
  The reference's result, index by index: entry (b, s, o) of its output is the sum over u of
  x(b, s, u) · (W(o, u) · scale(o)), W(o, u) the integer weight read as a real. When x and scale are real numbers the
  factor scale(o) moves out of the sum, which gives the common form (∑ u, x(b, s, u) · W(o, u)) · scale(o).
-/
import proofs.«135993_j489626271767_2_alg».proof.Proof.Gen.ReferenceIdeal.Read
import proofs.«135993_j489626271767_2_alg».proof.Proof.DotAlgebra

noncomputable section

namespace Cert.RefSide

open Idealize.ShloMosaic Idealize.ShloMosaic.ValueIdx
open Cert.ReferenceIdeal Cert.ReferenceIdeal.Read Cert.DotAlgebra

/-- The reference at entry (b, r, o). -/
theorem ref_apply (x : (⟨3, ![2, 2048, 4096]⟩ : Shape).Idx → EReal) (w : (⟨2, ![4096, 4096]⟩ : Shape).Idx → BitVec 32)
    (s : (⟨1, ![4096]⟩ : Shape).Idx → EReal) (b : Fin 2) (r : Fin 2048) (o : Fin 4096) :
    val_main_v4 (F := Ideal) x w s (ix3 b r o)
      = ∑ u : Fin 4096, x (ix3 b r u) * ((((w (ix2 o u)).toInt : ℝ) : EReal) * s (ix1 o)) := by
  rw [val_main_v4_apply]
  refine Finset.sum_congr rfl fun u _ => ?_
  have el : lidx_main_v4 (ix3 b r o) u = ix3 b r u := funext fun a => Fin.ext (by
    match a with
    | ⟨0, _⟩ => rfl
    | ⟨1, _⟩ => rfl
    | ⟨2, _⟩ => rfl)
  have er : ridx_main_v4 (ix3 b r o) u = ix2 o u := funext fun a => Fin.ext (by
    match a with
    | ⟨0, _⟩ => rfl
    | ⟨1, _⟩ => rfl)
  have e1 : idx_main_v1 (idx_main_v2 (ix2 o u)) = ix1 o := funext fun a => Fin.ext (by
    match a with
    | ⟨0, _⟩ => rfl)
  rw [el, er, val_main_v3_apply, val_main_v0_apply, val_main_v2_apply, val_main_v1_apply, e1]
  rfl

/-- With real x and scale, the reference is the common form. -/
theorem ref_eq (x : (⟨3, ![2, 2048, 4096]⟩ : Shape).Idx → EReal) (w : (⟨2, ![4096, 4096]⟩ : Shape).Idx → BitVec 32)
    (s : (⟨1, ![4096]⟩ : Shape).Idx → EReal) (hx : ∀ i, ∃ r : ℝ, x i = r) (hs : ∀ i, ∃ r : ℝ, s i = r) :
    val_main_v4 (F := Ideal) x w s = scaledDot x w s := by
  funext i
  obtain ⟨b, r, o, rfl⟩ : ∃ (b : Fin 2) (r : Fin 2048) (o : Fin 4096), i = ix3 b r o := ⟨i 0, i 1, i 2, eq_ix3 i⟩
  rw [ref_apply]
  exact sum_mul_scale Finset.univ (fun u => x (ix3 b r u)) (fun u => (((w (ix2 o u)).toInt : ℝ) : EReal)) (s (ix1 o))
    (fun u => hx _) (fun u => ⟨_, rfl⟩) (hs _)

end Cert.RefSide

end
-- ==== Proof.Finite.lean ====
/-
  What the precondition says: every entry of x and of the scale vector is a real number.

  The precondition is the conjunction of two tests "all entries have absolute value below +∞". A conjunction that is 1
  has both sides 1; an all-reduction that is 1 had a 1 at every entry; and an extended real whose absolute value is
  below +∞ is neither infinity, so it is a real.
-/
import proofs.«135993_j489626271767_2_alg».proof.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.Finite

open Idealize.ShloMosaic Idealize.ShloMosaic.ValueIdx Cert.Pre_finite_inputs

instance : Subsingleton S_.Idx := ⟨fun _ _ => funext fun d => d.elim0⟩

/-- The binary32 word of +∞ denotes ⊤. -/
theorem ofBits_inf : Ideal.ofBits .f32 0x7F800000#32 = (⊤ : EReal) := by
  simp [Ideal.ofBits, Ideal.ieee]

/-- An extended real whose absolute value tests below +∞ is a real number. -/
theorem real_of_abs_lt (x : EReal)
    (h : FloatOps.cmpf (F := Ideal) (φ := .f32) .olt (FloatOps.hostAbsf (F := Ideal) (φ := .f32) x) (Ideal.ofBits .f32 0x7F800000#32) = 1#1) :
    ∃ r : ℝ, x = r := by
  rw [Ideal.cmpf_def, ofBits_inf, Ideal.hostAbsf_def, Ideal.absf_def] at h
  induction x using EReal.rec with
  | bot => simp [Ideal.cmp] at h
  | coe r => exact ⟨r, rfl⟩
  | top => simp [Ideal.cmp] at h

variable [Cert.Pre_finite_inputs.Facts]

/-- Under the precondition every entry of x and every entry of the scale vector is a real. -/
theorem real_entries (x : FVec Ideal S2x2048x4096 .f32) (w : IVec S4096x4096 32) (s : FVec Ideal S4096 .f32)
    (h : fn (F := Ideal) x w s = fun _ => 1#1) :
    (∀ i, ∃ r : ℝ, x i = r) ∧ (∀ i, ∃ r : ℝ, s i = r) := by
  have h0 := congrFun h ix0
  dsimp only [fn] at h0
  obtain ⟨hx, hs⟩ := IntOp.andi_eq_one.mp h0
  exact ⟨fun i => real_of_abs_lt _ (Host.reduce_andi_all _ _ _ _ ix0 hx i),
    fun i => real_of_abs_lt _ (Host.reduce_andi_all _ _ _ _ ix0 hs i)⟩

end Cert.Finite

end
-- ==== Proof.lean ====
/-
  A weight-quantized linear layer, two ways, equal on the extended reals when x and the scale vector are finite.

  Both programs compute, at output entry (b, s, o),
      (∑ u, x(b, s, u) · W(o, u)) · scale(o),            W(o, u) the integer weight read as a real number.
  The kernel merges x's two leading axes, forms the inner sum in eight column blocks of 512 accumulated in a resident
  2048 × 1024 output tile — zeroed at the first block, multiplied column by column by the scale after the last — and
  splits the row axis again. The reference scales every weight first, W(o, u) · scale(o), and takes one contraction.
  Regrouping the sum into blocks needs only that addition is associative and commutative; moving the factor scale(o)
  across the sum needs x, W and scale to be real, which the precondition gives for x and scale and W always is.

  Modules: DotAlgebra (the common form and the two laws), Payloads (the body's three vector expressions at an entry),
  Cases (what the body leaves in the tile in each of its three control cases), Blocks (the windows' blocks at a grid
  point), Accumulate (the tile after each point, by induction), HostPrefix (the arrays the region finds),
  KernelValue (the output array, then the result), RefSide (the reference at an entry), Finite (the precondition read).
  Nothing was rewritten between the kernel and its idealization, so that conjunct is trivial; the three frames are the
  generated runs.
-/
import proofs.«135993_j489626271767_2_alg».proof.Defs
import proofs.«135993_j489626271767_2_alg».proof.Proof.Gen.Kernel
import proofs.«135993_j489626271767_2_alg».proof.Proof.Gen.Kernel.Skeleton
import proofs.«135993_j489626271767_2_alg».proof.Proof.Gen.Kernel.Launch
import proofs.«135993_j489626271767_2_alg».proof.Proof.Gen.Kernel.Points
import proofs.«135993_j489626271767_2_alg».proof.Proof.Gen.Kernel.Frame
import proofs.«135993_j489626271767_2_alg».proof.Proof.Gen.KernelIdeal
import proofs.«135993_j489626271767_2_alg».proof.Proof.Gen.KernelIdeal.Skeleton
import proofs.«135993_j489626271767_2_alg».proof.Proof.Gen.KernelIdeal.Launch
import proofs.«135993_j489626271767_2_alg».proof.Proof.Gen.KernelIdeal.Points
import proofs.«135993_j489626271767_2_alg».proof.Proof.Gen.KernelIdeal.Frame
import proofs.«135993_j489626271767_2_alg».proof.Proof.Gen.ReferenceIdeal
import proofs.«135993_j489626271767_2_alg».proof.Proof.Gen.ReferenceIdeal.Run
import proofs.«135993_j489626271767_2_alg».proof.Proof.Gen.ReferenceIdeal.Read
import proofs.«135993_j489626271767_2_alg».proof.Proof.Gen.Pre_finite_inputs
import proofs.«135993_j489626271767_2_alg».proof.Proof.KernelValue
import proofs.«135993_j489626271767_2_alg».proof.Proof.RefSide
import proofs.«135993_j489626271767_2_alg».proof.Proof.Finite
import Idealize.ShloMosaic.Adequacy
import Idealize.ShloMosaic.Init

noncomputable section

namespace Cert.Proof

open Idealize.ShloMosaic Idealize.SL.Sem

/-- The kernel runs and keeps its arguments: the generated frame. -/
theorem frame_kernel : Cert.frame_Kernel := fun m ρ _ => Cert.Kernel.Gen.frame m ρ

/-- The same, read on the extended reals. -/
theorem frame_kernelIdeal : Cert.frame_KernelIdeal := fun m ρ _ => Cert.KernelIdeal.Gen.frame m ρ

/-- The reference runs and keeps its arguments: its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten between the kernel and its reading on the extended reals. -/
theorem preserves : Cert.preserves_Kernel_KernelIdeal := trivial

/-- Both runs end with the result at the common form of arguments that agree: the kernel's by the accumulation over
    column blocks, the reference's by moving the real factor scale(o) out of its sum. -/
theorem algebraic : Cert.algebraic_KernelIdeal_ReferenceIdeal := by
  intro m ρ m' ρ' hpre hagree
  refine ⟨fun c => Cert.DotAlgebra.scaledDot (Cert.KernelIdeal.HostPrefix.argX m c) (Cert.KernelIdeal.HostPrefix.argW m c)
    (Cert.KernelIdeal.HostPrefix.argS m c), Cert.KernelIdeal.KernelValue.run m ρ, ?_⟩
  refine (θ_run Cert.ReferenceIdeal.defs _ _).mono (fun _ h c => ⟨?_, (h c).2⟩)
    (Cert.ReferenceIdeal.Value.run (F := Ideal) m' ρ')
  obtain ⟨hx, hs⟩ := Cert.Finite.real_entries _ _ _ (hpre c)
  rw [(h c).1, Cert.ReferenceIdeal.Read.val_main_v4_eq, (hagree c).1, (hagree c).2.1, (hagree c).2.2]
  exact Cert.RefSide.ref_eq _ _ _ hx hs

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
